-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩
abbrev S8192 : Shape := ⟨1, ![8192]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  reducesTo_S8192x64_S8192_d1 : S8192x64.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v14 : IVec S_ 1) (main_v15 : FVec F S8192x64 .f32) (main_cst_5 : FVec F S_ .f32) : IVec S_ 1 :=
  let main_v16 : FVec F S8192 .f32 := (fun x v => Host.reduceAdd x v reducesTo_S8192x64_S8192_d1 h_S_) main_v15 main_cst_5
  let main_cst_6 : FVec F S_ .f32 := constant S_ .f32 0x00000000#32
  let main_v17 : FVec F S8192 .f32 := broadcastInDim S8192 ![] bcast_S_S8192 main_cst_6
  let main_v18 : IVec S8192 1 := cmpf .ogt main_v16 main_v17
  let main_c_7 : IVec S_ 1 := constantI S_ 1 1#1
  let main_v19 : IVec S_ 1 := (fun x v => Host.reduce IntOp.andi x v reducesTo_S8192_S_d0 h_S_) main_v18 main_c_7
  let main_v20 : IVec S_ 1 := andi main_v14 main_v19
  main_v20

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := mulf main_arg0 main_arg0
  let main_cst_2 : FVec F S_ .f32 := constant S_ .f32 0x00000000#32
  let main_v10 : FVec F S8192 .f32 := (fun x v => Host.reduceAdd x v reducesTo_S8192x64_S8192_d1 h_S_) main_v9 main_cst_2
  let main_cst_3 : FVec F S_ .f32 := constant S_ .f32 0x00000000#32
  let main_v11 : FVec F S8192 .f32 := broadcastInDim S8192 ![] bcast_S_S8192 main_cst_3
  let main_v12 : IVec S8192 1 := cmpf .ogt main_v10 main_v11
  let main_c_4 : IVec S_ 1 := constantI S_ 1 1#1
  let main_v13 : IVec S_ 1 := (fun x v => Host.reduce IntOp.andi x v reducesTo_S8192_S_d0 h_S_) main_v12 main_c_4
  let main_v14 : IVec S_ 1 := andi main_v8 main_v13
  let main_v15 : FVec F S8192x64 .f32 := mulf main_arg1 main_arg1
  let main_cst_5 : FVec F S_ .f32 := constant S_ .f32 0x00000000#32
  fn_part1 (F := F) main_v14 main_v15 main_cst_5
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1024x64 : Shape := ⟨2, ![1024, 64]⟩
abbrev S2048x64 : Shape := ⟨2, ![2048, 64]⟩
abbrev S1024x1 : Shape := ⟨2, ![1024, 1]⟩
abbrev S2048x1 : Shape := ⟨2, ![2048, 1]⟩
abbrev S1024x2048 : Shape := ⟨2, ![1024, 2048]⟩

abbrev nBuf : Space → Nat
  | .hbm => 19
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S2048x64, .f32⟩
  | .local _ .vmem, ⟨4, _⟩ => ⟨S1024x1, .f32⟩
  | .local _ .vmem, ⟨5, _⟩ => ⟨S1024x1, .f32⟩
  | .local _ .vmem, ⟨6, _⟩ => ⟨S2048x1, .f32⟩
  | .local _ .vmem, ⟨7, _⟩ => ⟨S2048x1, .f32⟩
  | .local _ .vmem, ⟨8, _⟩ => ⟨S1024x2048, .f32⟩
  | .local _ .vmem, ⟨9, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_call1_v2 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  inb_S1024x64_S1024x64_0_0 : ∀ a, (![0, 0] : Fin 2 → Nat) a + S1024x64.size a ≤ S1024x64.size a
  h_S1024x64 : 0 < S1024x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S1024x2048_S1024x2048_0_0 : ∀ a, (![0, 0] : Fin 2 → Nat) a + S1024x2048.size a ≤ S1024x2048.size a
  h_S1024x2048 : 0 < S1024x2048.numel
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x8192.size a
  hwx0_4 : ∀ i : grid0.Coords, EltTy.bits .f32 = 32 ∨ (Rect.block (s := S8192x8192) S1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.LibHostKeepdims.lean ====
/-
  Reading the host's "keep the reduced axis as a unit axis" operations at an index.

  A host sum over the last axis of an `[a, b]` array kept as an `[a, 1]` column is met as: the sum to `[a]` from a
  zero scalar, a `broadcast_in_dim` of `[a]` to the column `[a, 1]`, and later a `broadcast_in_dim` of the column
  over `b` lanes; a scalar constant reaches a shape by `broadcast_in_dim` with no dimensions.  Each lemma reads one of
  them at an index built from coordinates.
-/
import Idealize.ShloMosaic.Lib.Pipeline.Value
import Idealize.ShloMosaic.Lib.ValueIdx
import Idealize.ShloMosaic.PureOps.Ideal.Laws

noncomputable section

namespace Idealize.ShloMosaic.HostKeepdims

open Idealize.ShloMosaic Idealize.ShloMosaic.ValueIdx

variable {α : Type}

/-- The host's sum over the last axis of an `[a, b]` array, started from the zero scalar, at row `r`, is the sum of
    the row's entries (the reduction's two shape facts are the caller's, decided at its literal shapes). -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd v (constant (F := Ideal) ⟨0, ![]⟩ .f32 0x00000000#32) h' hu (ix1 r) = ∑ k : Fin b, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- An `[a]` array laid as the column `[a, 1]` by `broadcast_in_dim` along axis 0 reads, at `(r, u)`, the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A scalar sent to any shape by `broadcast_in_dim` with no dimensions reads, everywhere, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- A column `[a, 1]` sent over `b` lanes by `broadcast_in_dim` along axes 0 and 1 reads, at `(r, c)`, the column at row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) :=
  broadcastInDim_apply _ h x (ix2 r c) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]

end Idealize.ShloMosaic.HostKeepdims

end
-- ==== Proof.PreDecode.lean ====
/-
  What the precondition says, entry by entry.

  The precondition is four tests joined by "and": every entry of `a` and every entry of `b` has absolute value below
  `+∞`, and every row of `a` and every row of `b` has a positive sum of squares.  Read on the extended reals, the first
  two say each entry is neither `+∞` nor `−∞` (so it is a real number), and the last two say `0 < Σ_k x(n,k)²` for every
  row `n`: no row is the zero vector, which is what keeps the norms away from zero.
-/
import proofs.«141678_j28467043237895_2_alg».proof.Pre_finite_inputs
import proofs.«141678_j28467043237895_2_alg».proof.Proof.LibHostKeepdims
import Idealize.ShloMosaic.Lib.ReduceAll
import Idealize.ShloMosaic.Lib.IdealHost
import Idealize.ShloMosaic.Lib.ValueIdx
import Idealize.ShloMosaic.PureOps.Ideal.Laws

noncomputable section

namespace Cert.Cosine

open Idealize.ShloMosaic Idealize.ShloMosaic.ValueIdx Cert.Pre_finite_inputs

/-- The binary32 word of `+∞` denotes `⊤`. -/
theorem ofBits_pos_inf : Ideal.ofBits .f32 0x7F800000#32 = (⊤ : EReal) := by
  simp [Ideal.ofBits, Ideal.ieee]

/-- An extended real whose absolute value is below `+∞` is neither infinity. -/
theorem ne_inf_of_abs_lt (x : EReal) (h : Ideal.cmp .olt (max x (-x)) ⊤ = 1#1) : x ≠ ⊤ ∧ x ≠ ⊥ := by
  unfold Ideal.cmp at h
  have hlt : max x (-x) < ⊤ := by
    by_contra hn
    simp [hn] at h
  rw [max_lt_iff] at hlt
  refine ⟨ne_of_lt hlt.1, ?_⟩
  intro hb
  rw [hb] at hlt
  exact absurd hlt.2 (by simp)

/-- The test "greater than" that answers one is the strict order. -/
theorem pos_of_ogt (x y : EReal) (h : Ideal.cmp .ogt x y = 1#1) : y < x := by
  unfold Ideal.cmp at h
  by_contra hn
  simp [hn] at h

instance : Subsingleton S_.Idx := ⟨fun _ _ => funext fun d => d.elim0⟩

/-- Every entry of both arrays is a real number and every row of both has a positive sum of squares. -/
theorem pre_decode [Cert.Pre_finite_inputs.Facts] (A B : FVec Ideal S8192x64 .f32)
    (h : Cert.Pre_finite_inputs.fn (F := Ideal) A B = fun _ => 1#1) :
    (∀ i, A i ≠ ⊤ ∧ A i ≠ ⊥) ∧ (∀ i, B i ≠ ⊤ ∧ B i ≠ ⊥)
      ∧ (∀ n : Fin 8192, 0 < ∑ k : Fin 64, A (ix2 n k) * A (ix2 n k))
      ∧ (∀ n : Fin 8192, 0 < ∑ k : Fin 64, B (ix2 n k) * B (ix2 n k)) := by
  have h0 := congrFun h ix0
  dsimp only [Cert.Pre_finite_inputs.fn, Cert.Pre_finite_inputs.fn_part1] at h0
  obtain ⟨h01, hB2⟩ := IntOp.andi_eq_one.mp h0
  obtain ⟨h02, hA2⟩ := IntOp.andi_eq_one.mp h01
  obtain ⟨hA1, hB1⟩ := IntOp.andi_eq_one.mp h02
  have hred : (⟨2, ![8192, 64]⟩ : Shape).Reduces [1] ⟨1, ![8192]⟩ := by decide
  refine ⟨fun i => ?_, fun i => ?_, fun n => ?_, fun n => ?_⟩
  · have e := Host.reduce_andi_all _ _ _ _ ix0 hA1 i
    refine ne_inf_of_abs_lt (A i) ?_
    rw [← ofBits_pos_inf]; exact e
  · have e := Host.reduce_andi_all _ _ _ _ ix0 hB1 i
    refine ne_inf_of_abs_lt (B i) ?_
    rw [← ofBits_pos_inf]; exact e
  · have e := Host.reduce_andi_all _ _ _ _ ix0 hA2 (ix1 n)
    have e' := pos_of_ogt _ _ e
    rw [show (broadcastInDim S8192 ![] Facts.bcast_S_S8192 (constant (F := Ideal) S_ .f32 0x00000000#32)) (ix1 n)
          = Ideal.ofBits .f32 0x00000000#32 from rfl, Ideal.ofBits_zero_f32,
      HostKeepdims.hostRowSum_apply (mulf A A) Facts.reducesTo_S8192x64_S8192_d1 hred Facts.h_S_ n] at e'
    exact e'
  · have e := Host.reduce_andi_all _ _ _ _ ix0 hB2 (ix1 n)
    have e' := pos_of_ogt _ _ e
    rw [show (broadcastInDim S8192 ![] Facts.bcast_S_S8192 (constant (F := Ideal) S_ .f32 0x00000000#32)) (ix1 n)
          = Ideal.ofBits .f32 0x00000000#32 from rfl, Ideal.ofBits_zero_f32,
      HostKeepdims.hostRowSum_apply (mulf B B) Facts.reducesTo_S8192x64_S8192_d1 hred Facts.h_S_ n] at e'
    exact e'

end Cert.Cosine

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.Payload.lean ====
/-
  The kernel body's stored value at an entry.

  At one grid point the body holds a block of `a` (1024 rows), the matching column of reciprocal norms, a block of
  `b` (2048 rows) and its column of reciprocal norms.  It scales every row of each block by that row's reciprocal norm
  (a column broadcast over the 64 lanes, then an entrywise product; the narrowing to the 16-bit format is the identity
  on the extended reals) and multiplies the scaled `a` block by the transpose of the scaled `b` block into a zero
  accumulator.  So entry `(p, q)` of the stored block is `Σ_j (a(p,j) · ra(p)) · (b(q,j) · rb(q))`.
-/
import proofs.«141678_j28467043237895_2_alg».proof.Proof.Gen.KernelIdeal.Skeleton
import proofs.«141678_j28467043237895_2_alg».proof.Proof.LibRowOps
import proofs.«141678_j28467043237895_2_alg».proof.Proof.LibKeepdims
import Idealize.ShloMosaic.Lib.ValueIdx
import Idealize.ShloMosaic.Lib.Pipeline.Value
import Idealize.ShloMosaic.PureOps.Ideal.Laws

noncomputable section

namespace Cert.Cosine

open Idealize.ShloMosaic Idealize.ShloMosaic.ValueIdx Cert.KernelIdeal Cert.KernelIdeal.Gen

variable [Cert.KernelIdeal.Facts]

/-- The product's left operand index keeps the result's row. -/
theorem dot_lhs0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl

/-- The product's left operand index takes the contracted coordinate as its lane. -/
theorem dot_lhs1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q

/-- The product's right operand index takes the result's column as its row. -/
theorem dot_rhs0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl

/-- The product's right operand index takes the contracted coordinate as its lane. -/
theorem dot_rhs1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Entry `(p, q)` of the block the body stores: the inner product of row `p` of the `a` block and row `q` of the `b`
    block, each entry first scaled by its own row's reciprocal norm. -/
theorem payload_apply (v0 : Vec Ideal S1024x64 .f32) (v1 : Vec Ideal S1024x1 .f32)
    (v6 : Vec Ideal S2048x64 .f32) (v7 : Vec Ideal S2048x1 .f32) (p : Fin 1024) (q : Fin 2048) :
    k0_pay1 (F := Ideal) v0 v1 v6 v7 (ix2 p q)
      = ∑ j : Fin 64, (v0 (ix2 p j) * v1 (ix2 p (0 : Fin 1))) * (v6 (ix2 q j) * v7 (ix2 q (0 : Fin 1))) := by
  unfold k0_pay1
  refine (RowOps.matmulT_zero_apply dot_S1024x64_S2048x64_S1024x2048_1_1_0_0_n_n none rfl rfl
    dot_lhs0 dot_lhs1 dot_rhs0 dot_rhs1 _ _ p q).trans ?_
  refine Finset.sum_congr rfl fun j _ => ?_
  rw [truncf_apply, truncf_apply, mulf_apply, mulf_apply, Keepdims.broadcastTo_a1_ab_apply,
    Keepdims.broadcastTo_a1_ab_apply, shapeCast_self, shapeCast_self]

end Cert.Cosine

end
-- ==== Proof.HostNorms.lean ====
/-
  The reciprocal norms the region is launched with.

  Before the region the host squares each argument array entrywise, sums each row from zero, lays the sums as a column,
  takes the square root, and divides one by it: the columns handed to the region hold, at row `n`,
  `1 / √(Σ_k x(n,k)²)` for `x` the argument array as launched.
-/
import proofs.«141678_j28467043237895_2_alg».proof.Proof.Gen.KernelIdeal.Frame
import proofs.«141678_j28467043237895_2_alg».proof.Proof.LibHostKeepdims
import Idealize.ShloMosaic.Lib.StableHlo.Run
import Idealize.ShloMosaic.Lib.IdealHost
import Idealize.ShloMosaic.Lib.ValueIdx
import Idealize.ShloMosaic.PureOps.Ideal.Laws

set_option maxRecDepth 16384

noncomputable section

namespace Cert.Cosine

open Idealize.ShloMosaic Idealize.ShloMosaic.TcCoe Idealize.ShloMosaic.ValueIdx Idealize.SL.Sem
open Cert.KernelIdeal Cert.KernelIdeal.Gen

variable [Cert.KernelIdeal.Facts]
variable (m : (ℓ : Loc nD τ sig) → Buf (Elt Ideal) ℓ)

/-- The column of reciprocal norms of an array: one over the square root of each row's sum of squares. -/
def invNormCol (x : FVec Ideal S8192x64 .f32) : FVec Ideal S8192x1 .f32 :=
  Host.divf (broadcastInDim S8192x1 ![] Facts₀.bcast_S_S8192x1 (constant (F := Ideal) S_ .f32 0x3F800000#32))
    (Host.sqrt (broadcastInDim S8192x1 ![0] Facts₀.bcast_S8192_S8192x1_0
      (Host.reduceAdd (mulf x x) (constant (F := Ideal) S_ .f32 0x00000000#32)
        Facts₀.reducesTo_S8192x64_S8192_d1 Facts₀.h_S_)))

/-- Row `n` of the column: `1 / √(Σ_k x(n,k)²)`. -/
theorem invNormCol_apply (x : FVec Ideal S8192x64 .f32) (n : Fin 8192) :
    invNormCol x (ix2 n (0 : Fin 1)) = Ideal.div 1 (Ideal.sqrt (∑ k : Fin 64, x (ix2 n k) * x (ix2 n k))) := by
  have hred : (⟨2, ![8192, 64]⟩ : Shape).Reduces [1] ⟨1, ![8192]⟩ := by decide
  unfold invNormCol
  show Ideal.div (broadcastInDim S8192x1 ![] Facts₀.bcast_S_S8192x1 (constant (F := Ideal) S_ .f32 0x3F800000#32) (ix2 n (0 : Fin 1)))
      (Ideal.sqrt (broadcastInDim S8192x1 ![0] Facts₀.bcast_S8192_S8192x1_0
        (Host.reduceAdd (mulf x x) (constant (F := Ideal) S_ .f32 0x00000000#32)
          Facts₀.reducesTo_S8192x64_S8192_d1 Facts₀.h_S_) (ix2 n (0 : Fin 1)))) = _
  rw [HostKeepdims.bcast_scalar_apply, HostKeepdims.bcast_a_a1_apply,
    HostKeepdims.hostRowSum_apply (mulf x x) Facts₀.reducesTo_S8192x64_S8192_d1 hred Facts₀.h_S_ n]
  show Ideal.div (Ideal.ofBits .f32 0x3F800000#32) _ = _
  rw [Ideal.ofBits_one_f32]
  rfl

/-- The region finds the third window's array at the reciprocal norms of the first argument. -/
theorem V_main_v3 (c : Dev nD) :
    (V m c main_v3 : S8192x1.Idx → EReal) = invNormCol (m ((c : Thread nD τ).loc main_arg0)) := by
  unfold invNormCol
  dsimp only [Gen.V]
  simp only [Gen.hostOps0, Gen.hostOps0_1, Gen.hostOps0_2, List.flatten_cons, List.flatten_nil, List.append_nil,
    List.cons_append, List.nil_append]
  after_results
  rfl

/-- The region finds the fourth window's array at the reciprocal norms of the second argument. -/
theorem V_main_v5 (c : Dev nD) :
    (V m c main_v5 : S8192x1.Idx → EReal) = invNormCol (m ((c : Thread nD τ).loc main_arg1)) := by
  unfold invNormCol
  dsimp only [Gen.V]
  simp only [Gen.hostOps0, Gen.hostOps0_1, Gen.hostOps0_2, List.flatten_cons, List.flatten_nil, List.append_nil,
    List.cons_append, List.nil_append]
  after_results
  rfl

end Cert.Cosine

end
-- ==== Proof.KernelArray.lean ====
/-
  The kernel's result array as one function of the argument arrays.

  The output is cut into 8 × 4 blocks of 1024 × 2048 entries.  The point whose output block has block indices `(I, J)`
  is handed block `I` of `a` and of its column of reciprocal norms, and block `J` of `b` and of its column, so what it
  writes at entry `(p, q)` of its block is the scaled inner product of row `1024·I + p` of `a` and row `2048·J + q` of
  `b`: every point writes the restriction of ONE function of the whole arrays to its own block.  The blocks tile the
  array (entry `(r, s)` lies in the block with indices `(r / 1024, s / 2048)`), so after the run the array is that
  function everywhere.
-/
import proofs.«141678_j28467043237895_2_alg».proof.Proof.Gen.KernelIdeal.Value
import proofs.«141678_j28467043237895_2_alg».proof.Proof.Payload
import proofs.«141678_j28467043237895_2_alg».proof.Proof.HostNorms
import Idealize.ShloMosaic.Lib.Pipeline.Value
import Idealize.ShloMosaic.Lib.ValueIdx

set_option maxRecDepth 16384

noncomputable section

namespace Cert.Cosine

open Idealize.ShloMosaic Idealize.ShloMosaic.TcCoe Idealize.ShloMosaic.ValueIdx Idealize.SL.Sem
open Cert.KernelIdeal Cert.KernelIdeal.Gen
open Idealize.ShloMosaic.Pipeline (Dat)

variable [Cert.KernelIdeal.Facts]
variable (m : (ℓ : Loc nD τ sig) → Buf (Elt Ideal) ℓ) (ρ : Dev nD → PrngReg)

/-- The inner product of row `r` of `A` and row `s` of `B`, each entry first scaled by its row's entry of a column. -/
def scaledDot (A B : FVec Ideal S8192x64 .f32) (RA RB : FVec Ideal S8192x1 .f32) (r s : Fin 8192) : EReal :=
  ∑ j : Fin 64, (A (ix2 r j) * RA (ix2 r (0 : Fin 1))) * (B (ix2 s j) * RB (ix2 s (0 : Fin 1)))

/-- The whole result array: entry `(r, s)` is the scaled inner product of rows `r` and `s`. -/
def scaledGram (A B : FVec Ideal S8192x64 .f32) (RA RB : FVec Ideal S8192x1 .f32) : S8192x8192.Idx → EReal :=
  fun i => scaledDot A B RA RB (i 0) (i 1)

theorem zero_offsets : (![0, 0] : Fin 2 → Nat) = fun _ => 0 := funext fun a => by fin_cases a <;> rfl

/-- The stored block at a block index, from the four loaded blocks in the windows' order. -/
theorem block_entry (x0 : Vec Ideal S1024x64 .f32) (x1 : Vec Ideal S2048x64 .f32) (x2 : Vec Ideal S1024x1 .f32)
    (x3 : Vec Ideal S2048x1 .f32) (y : S1024x2048.Idx) :
    k0_pay1 (F := Ideal) x0 x2 x1 x3 y
      = ∑ j : Fin 64, (x0 (ix2 (y 0) j) * x2 (ix2 (y 0) (0 : Fin 1))) * (x1 (ix2 (y 1) j) * x3 (ix2 (y 1) (0 : Fin 1))) := by
  obtain ⟨p, q, rfl⟩ : ∃ (p : Fin 1024) (q : Fin 2048), y = ix2 p q := ⟨y 0, y 1, eq_ix2 y⟩
  exact payload_apply x0 x2 x1 x3 p q

/-- How the five index maps move over the grid: the `a` block and its column follow the output's row block, the `b`
    block and its column follow the output's column block, and none moves along its second axis. -/
theorem idx_facts : ∀ t : Fin cfg0.N,
    win0_0.index t (0 : Fin 2) = win0_4.index t (0 : Fin 2) ∧ win0_0.index t (1 : Fin 2) = 0
    ∧ win0_2.index t (0 : Fin 2) = win0_4.index t (0 : Fin 2) ∧ win0_2.index t (1 : Fin 2) = 0
    ∧ win0_1.index t (0 : Fin 2) = win0_4.index t (1 : Fin 2) ∧ win0_1.index t (1 : Fin 2) = 0
    ∧ win0_3.index t (0 : Fin 2) = win0_4.index t (1 : Fin 2) ∧ win0_3.index t (1 : Fin 2) = 0
    ∧ win0_4.index t (0 : Fin 2) ≤ 7 ∧ win0_4.index t (1 : Fin 2) ≤ 3 :=
  (by decide +kernel : ∀ t : Fin grid0.N, _)

/-- Every pair of block indices is some point's. -/
theorem idx_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

set_option maxHeartbeats 1000000 in
/-- What point `t` writes back is its block of the one whole-array function. -/
theorem flushed_eq (c : Dev nD) (t : Fin cfg0.N) :
    (dats m 0 c).flushed 4 t = ((cfg0.win 4).blk t).view.read (Elt Ideal)
      (scaledGram (V m c main_arg0) (V m c main_arg1) (V m c main_v3) (V m c main_v5)) := by
  rw [Cert.KernelIdeal.Value.flushed4]
  unfold out0_4
  rw [View.canon_unit_zero zero_offsets]
  simp only [View.ld_unit_zero (S := S1024x64) zero_offsets, View.ld_unit_zero (S := S2048x64) zero_offsets,
    View.ld_unit_zero (S := S1024x1) zero_offsets, View.ld_unit_zero (S := S2048x1) zero_offsets]
  obtain ⟨e0, e1, e2, e3, e4, e5, e6, e7, e8, e9⟩ := idx_facts t
  funext y
  show k0_pay1 (F := Ideal) (iblk m c 0 t) (iblk m c 2 t) (iblk m c 1 t) (iblk m c 3 t) y
    = scaledGram (V m c main_arg0) (V m c main_arg1) (V m c main_v3) (V m c main_v5) (((cfg0.win 4).blk t).view.emb y)
  obtain ⟨i, hi⟩ : ∃ i : S8192x8192.Idx, i = ((cfg0.win 4).blk t).view.emb y := ⟨_, rfl⟩
  have i0 : (i 0).val = win0_4.index t (0 : Fin 2) * 1024 + 1 * (y 0).val := by rw [hi]; rfl
  have i1 : (i 1).val = win0_4.index t (1 : Fin 2) * 2048 + 1 * (y 1).val := by rw [hi]; rfl
  rw [← hi]
  refine (block_entry (iblk m c 0 t) (iblk m c 1 t) (iblk m c 2 t) (iblk m c 3 t) y).trans ?_
  show _ = scaledDot (V m c main_arg0) (V m c main_arg1) (V m c main_v3) (V m c main_v5) (i 0) (i 1)
  unfold scaledDot
  refine Finset.sum_congr rfl fun j _ => ?_
  have a0 : iblk m c 0 t (ix2 (y 0) j) = V m c main_arg0 (ix2 (i 0) j) := by
    show V m c main_arg0 (((cfg0.win 0).blk t).view.emb (ix2 (y 0) j)) = _
    refine congrArg (V m c main_arg0) (funext fun a => Fin.ext ?_)
    match a with
    | ⟨0, _⟩ => show win0_0.index t (0 : Fin 2) * 1024 + 1 * (y 0).val = (i 0).val; omega
    | ⟨1, _⟩ => show win0_0.index t (1 : Fin 2) * 64 + 1 * j.val = j.val; omega
  have a2 : iblk m c 2 t (ix2 (y 0) (0 : Fin 1)) = V m c main_v3 (ix2 (i 0) (0 : Fin 1)) := by
    show V m c main_v3 (((cfg0.win 2).blk t).view.emb (ix2 (y 0) (0 : Fin 1))) = _
    refine congrArg (V m c main_v3) (funext fun a => Fin.ext ?_)
    match a with
    | ⟨0, _⟩ => show win0_2.index t (0 : Fin 2) * 1024 + 1 * (y 0).val = (i 0).val; omega
    | ⟨1, _⟩ => show win0_2.index t (1 : Fin 2) * 1 + 1 * 0 = 0; omega
  have a1 : iblk m c 1 t (ix2 (y 1) j) = V m c main_arg1 (ix2 (i 1) j) := by
    show V m c main_arg1 (((cfg0.win 1).blk t).view.emb (ix2 (y 1) j)) = _
    refine congrArg (V m c main_arg1) (funext fun a => Fin.ext ?_)
    match a with
    | ⟨0, _⟩ => show win0_1.index t (0 : Fin 2) * 2048 + 1 * (y 1).val = (i 1).val; omega
    | ⟨1, _⟩ => show win0_1.index t (1 : Fin 2) * 64 + 1 * j.val = j.val; omega
  have a3 : iblk m c 3 t (ix2 (y 1) (0 : Fin 1)) = V m c main_v5 (ix2 (i 1) (0 : Fin 1)) := by
    show V m c main_v5 (((cfg0.win 3).blk t).view.emb (ix2 (y 1) (0 : Fin 1))) = _
    refine congrArg (V m c main_v5) (funext fun a => Fin.ext ?_)
    match a with
    | ⟨0, _⟩ => show win0_3.index t (0 : Fin 2) * 2048 + 1 * (y 1).val = (i 1).val; omega
    | ⟨1, _⟩ => show win0_3.index t (1 : Fin 2) * 1 + 1 * 0 = 0; omega
  rw [a0, a1, a2, a3]

/-- An index of the array is in point `t`'s block iff each coordinate is in the block's range on its axis. -/
theorem mem_blk (t : Fin cfg0.N) (i : S8192x8192.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v6).slice (win0_4.rect t)).set ↔ _
  rw [View.set_slice_whole, Rect.mem_set_unit]
  exact Iff.rfl

/-- The blocks tile the array: entry `(r, s)` is in the block with indices `(r / 1024, s / 2048)`. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_4.index t (0 : Fin 2) = (i 0).val / 1024 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

/-- The kernel's value: the scaled inner products, the scaling columns the reciprocal norms of the same arrays. -/
def kernelValue (A B : FVec Ideal S8192x64 .f32) : S8192x8192.Idx → EReal :=
  scaledGram A B (invNormCol A) (invNormCol B)

/-- After the run the result array is the kernel's value of the arguments as launched. -/
theorem final (c : Dev nD) : (dats m 0 c).arrAt 4 cfg0.N
    = kernelValue (m ((c : Thread nD τ).loc main_arg0)) (m ((c : Thread nD τ).loc main_arg1)) := by
  rw [(dats m 0 c).arrAt_eq_of_cover 4 _ (fun t _ => flushed_eq m c t) cover, V_main_arg0, V_main_arg1,
    V_main_v3, V_main_v5]
  rfl

/-- The kernel's run: it ends with the result array at the kernel's value and the arguments unchanged. -/
theorem kernel_run : θ_run defs (onTc (τ := τ) (main (F := Ideal))) ⟨m, fun _ => 0, ρ⟩ fun r => ∀ c : Dev nD,
      r.2.mem ((c : Thread nD τ).loc main_v6)
        = kernelValue (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Cosine

end
-- ==== Proof.RefValue.lean ====
/-
  The reference's result array as one function of the argument arrays.

  The reference takes all inner products `Σ_j a(r,j) · b(s,j)`, the norm `√(Σ_k x(n,k)²)` of every row of each array,
  lays the norms of `a` down the rows and those of `b` along the columns, multiplies the two, and divides:
  entry `(r, s)` is `(Σ_j a(r,j) · b(s,j)) / (|a_r| · |b_s|)`.
-/
import proofs.«141678_j28467043237895_2_alg».proof.Proof.Gen.ReferenceIdeal.Read
import Idealize.ShloMosaic.Lib.ValueIdx
import Idealize.ShloMosaic.PureOps.Ideal.Laws

noncomputable section

namespace Cert.Cosine

open Idealize.ShloMosaic Idealize.ShloMosaic.ValueIdx Cert.ReferenceIdeal Cert.ReferenceIdeal.Read

variable [Cert.ReferenceIdeal.Facts]

/-- Entry `(r, s)`: the inner product of rows `r` and `s` over the product of their norms. -/
def refValue (A B : FVec Ideal S8192x64 .f32) : S8192x8192.Idx → EReal := fun i =>
  Ideal.div (∑ j : Fin 64, A (ix2 (i 0) j) * B (ix2 (i 1) j))
    (Ideal.sqrt (∑ k : Fin 64, A (ix2 (i 0) k) * A (ix2 (i 0) k))
      * Ideal.sqrt (∑ k : Fin 64, B (ix2 (i 1) k) * B (ix2 (i 1) k)))

theorem lidx_eq (i : S8192x8192.Idx) (k : Fin 64) : lidx_main_v0 i k = ix2 (i 0) k :=
  funext fun a => Fin.ext (by match a with | ⟨0, _⟩ => rfl | ⟨1, _⟩ => rfl)

theorem ridx_eq (i : S8192x8192.Idx) (k : Fin 64) : ridx_main_v0 i k = ix2 (i 1) k :=
  funext fun a => Fin.ext (by match a with | ⟨0, _⟩ => rfl | ⟨1, _⟩ => rfl)

theorem rowA_eq (i : S8192x8192.Idx) (k : Fin 64) : idx_main_call0_v1 (idx_main_v3 (idx_main_v5 i)) k = ix2 (i 0) k :=
  funext fun a => Fin.ext (by match a with | ⟨0, _⟩ => rfl | ⟨1, _⟩ => rfl)

theorem rowB_eq (i : S8192x8192.Idx) (k : Fin 64) : idx_main_call1_v1 (idx_main_v4 (idx_main_v6 i)) k = ix2 (i 1) k :=
  funext fun a => Fin.ext (by match a with | ⟨0, _⟩ => rfl | ⟨1, _⟩ => rfl)

/-- The reference's last stage is that function. -/
theorem ref_eq (A B : FVec Ideal S8192x64 .f32) : val_main_v8 (F := Ideal) A B = refValue A B := by
  funext i
  rw [val_main_v8_apply, val_main_v0_apply, val_main_v7_apply, val_main_v5_apply, val_main_v6_apply,
    val_main_v3_apply, val_main_v4_apply, val_main_v1_apply, val_main_v2_apply, val_main_call0_v1_apply,
    val_main_call1_v1_apply]
  simp only [val_main_call0_v0_apply, val_main_call1_v0_apply, val_main_call0_cst_apply, val_main_call1_cst_apply,
    lidx_eq, ridx_eq, rowA_eq, rowB_eq, Ideal.hostDivf_def, Ideal.hostUnary_sqrt_def, Ideal.mulf_def, Ideal.ofBits_def,
    Ideal.ofBits_zero_f32, zero_add]
  rfl

end Cert.Cosine

end
-- ==== Proof.CosineLaw.lean ====
/-
  Cosine similarity of two real vectors, in its two arrangements on the extended reals.

  For vectors `u`, `v` over a finite index set, with `|u|² = Σ u_k²` and `|v|² = Σ v_k²` both positive, one
  arrangement scales every entry by the reciprocal of its own vector's norm and then takes the inner product,
  `Σ_k (u_k · (1/|u|)) · (v_k · (1/|v|))`; the other takes the inner product first and divides it by the product
  of the norms, `(Σ_k u_k · v_k) / (|u| · |v|)`.  The entries are real and the norms positive reals, so every
  quantity met is a real number, and the two agree by the real identity `Σ (u_k/A)(v_k/B) = (Σ u_k v_k)/(A B)`.
  Positivity of the norms is what keeps both sides away from a division by zero.
-/
import Idealize.ShloMosaic.PureOps.Ideal
import Idealize.ShloMosaic.PureOps.Ideal.Laws

noncomputable section

namespace Cert.Cosine

open Idealize.ShloMosaic

variable {ι : Type*}

/-- A finite sum of reals, read on the extended reals, is the sum of the readings. -/
theorem coe_sum (s : Finset ι) (f : ι → ℝ) : ∑ k ∈ s, ((f k : ℝ) : EReal) = ((∑ k ∈ s, f k : ℝ) : EReal) := by
  classical
  induction s using Finset.induction_on with
  | empty => simp
  | insert j s hj ih => rw [Finset.sum_insert hj, Finset.sum_insert hj, ih, EReal.coe_add]

/-- A finite sum of products of reals, read on the extended reals. -/
theorem coe_sum_mul (s : Finset ι) (f g : ι → ℝ) :
    ∑ k ∈ s, ((f k : ℝ) : EReal) * ((g k : ℝ) : EReal) = ((∑ k ∈ s, f k * g k : ℝ) : EReal) := by
  rw [← coe_sum]
  exact Finset.sum_congr rfl fun k _ => (EReal.coe_mul _ _).symm

/-- The square root of a positive real is the real square root. -/
theorem sqrt_coe_pos {r : ℝ} (hr : 0 < r) : Ideal.sqrt (r : EReal) = ((Real.sqrt r : ℝ) : EReal) := by
  rw [Ideal.sqrt_coe, if_neg (not_lt.mpr hr.le)]

/-- The two arrangements of the cosine similarity agree for real vectors of positive norm. -/
theorem cosine_law [Fintype ι] (u v : ι → ℝ) (hu : 0 < ∑ k, u k * u k) (hv : 0 < ∑ k, v k * v k) :
    ∑ k, ((u k : EReal) * Ideal.div 1 (Ideal.sqrt (∑ j, (u j : EReal) * (u j : EReal))))
          * ((v k : EReal) * Ideal.div 1 (Ideal.sqrt (∑ j, (v j : EReal) * (v j : EReal))))
      = Ideal.div (∑ k, (u k : EReal) * (v k : EReal))
          (Ideal.sqrt (∑ j, (u j : EReal) * (u j : EReal)) * Ideal.sqrt (∑ j, (v j : EReal) * (v j : EReal))) := by
  have hA : 0 < Real.sqrt (∑ j, u j * u j) := Real.sqrt_pos.mpr hu
  have hB : 0 < Real.sqrt (∑ j, v j * v j) := Real.sqrt_pos.mpr hv
  rw [coe_sum_mul, coe_sum_mul, coe_sum_mul, sqrt_coe_pos hu, sqrt_coe_pos hv, ← EReal.coe_mul,
    Ideal.div_coe hA.ne', Ideal.div_coe hB.ne', Ideal.div_coe (mul_pos hA hB).ne']
  simp only [one_mul, ← EReal.coe_mul]
  rw [coe_sum]
  refine congrArg (fun r : ℝ => (r : EReal)) ?_
  rw [Finset.sum_mul]
  refine Finset.sum_congr rfl fun k _ => ?_
  field_simp

end Cert.Cosine

end
-- ==== Proof.Bridge.lean ====
/-
  The kernel's value is the reference's, on arrays of real entries with no zero row.

  Entry `(r, s)` of the kernel's array is `Σ_j (a(r,j) · (1/|a_r|)) · (b(s,j) · (1/|b_s|))` and of the reference's
  `(Σ_j a(r,j) · b(s,j)) / (|a_r| · |b_s|)`, with `|x_n| = √(Σ_k x(n,k)²)`.  With every entry a real number and both
  rows' sums of squares positive these are the two arrangements of the cosine similarity of two real vectors.
-/
import proofs.«141678_j28467043237895_2_alg».proof.Proof.KernelArray
import proofs.«141678_j28467043237895_2_alg».proof.Proof.RefValue
import proofs.«141678_j28467043237895_2_alg».proof.Proof.CosineLaw

noncomputable section

namespace Cert.Cosine

open Idealize.ShloMosaic Idealize.ShloMosaic.ValueIdx

variable [Cert.KernelIdeal.Facts] [Cert.ReferenceIdeal.Facts]

/-- A positive sum of squares of real entries, read back in the reals. -/
theorem real_pos_of_pos {ι : Type*} [Fintype ι] (u : ι → ℝ) (h : (0 : EReal) < ∑ k, (u k : EReal) * (u k : EReal)) :
    0 < ∑ k, u k * u k := by
  rw [coe_sum_mul] at h
  exact_mod_cast h

theorem kernel_eq_ref (A B : FVec Ideal ⟨2, ![8192, 64]⟩ .f32)
    (hA : ∀ i, A i ≠ ⊤ ∧ A i ≠ ⊥) (hB : ∀ i, B i ≠ ⊤ ∧ B i ≠ ⊥)
    (hpA : ∀ n : Fin 8192, 0 < ∑ k : Fin 64, A (ix2 n k) * A (ix2 n k))
    (hpB : ∀ n : Fin 8192, 0 < ∑ k : Fin 64, B (ix2 n k) * B (ix2 n k)) :
    kernelValue A B = refValue A B := by
  have hAr : ∀ idx, ∃ r : ℝ, A idx = (r : EReal) := fun idx =>
    ⟨(A idx).toReal, (EReal.coe_toReal (hA idx).1 (hA idx).2).symm⟩
  have hBr : ∀ idx, ∃ r : ℝ, B idx = (r : EReal) := fun idx =>
    ⟨(B idx).toReal, (EReal.coe_toReal (hB idx).1 (hB idx).2).symm⟩
  choose u hu using hAr
  choose v hv using hBr
  funext i
  obtain ⟨r, s, rfl⟩ : ∃ (r s : Fin 8192), i = ix2 r s := ⟨i 0, i 1, eq_ix2 i⟩
  have hpa := hpA r
  have hpb := hpB s
  show (∑ j : Fin 64, (A (ix2 r j) * invNormCol A (ix2 r (0 : Fin 1))) * (B (ix2 s j) * invNormCol B (ix2 s (0 : Fin 1))))
    = Ideal.div (∑ j : Fin 64, A (ix2 r j) * B (ix2 s j))
        (Ideal.sqrt (∑ k : Fin 64, A (ix2 r k) * A (ix2 r k)) * Ideal.sqrt (∑ k : Fin 64, B (ix2 s k) * B (ix2 s k)))
  rw [invNormCol_apply, invNormCol_apply]
  simp only [hu, hv] at hpa hpb ⊢
  exact cosine_law (fun k => u (ix2 r k)) (fun k => v (ix2 s k)) (real_pos_of_pos _ hpa) (real_pos_of_pos _ hpb)

end Cert.Cosine

end
-- ==== Proof.lean ====
/- The proof of `Cert.Claim` (proofs.«141678_j28467043237895_2_alg».proof.Defs): pairwise cosine similarity of the rows
   of `a` and `b`, both 8192 × 64.

   The kernel first computes, on the host, the column of reciprocal norms `1 / √(Σ_k x(n,k)²)` of each array; its region
   then scales every row of a block of `a` and of a block of `b` by that row's reciprocal norm and multiplies the scaled
   `a` block by the transpose of the scaled `b` block, so entry `(r, s)` of its result is
   `Σ_j (a(r,j) · (1/|a_r|)) · (b(s,j) · (1/|b_s|))`.  The reference computes `(Σ_j a(r,j) · b(s,j)) / (|a_r| · |b_s|)`.
   On the extended reals the two agree when every entry is a real number and no row is the zero vector: then all the
   norms are positive reals and the identity is `Σ_j (u_j/A)(v_j/B) = (Σ_j u_j v_j)/(A·B)` in the reals
   (Proof/CosineLaw.lean).  On a zero row they differ — the reference divides zero by zero while the kernel multiplies
   zero by the reciprocal of zero — which is why the precondition asks every row's sum of squares to be positive.

   Proof/PreDecode.lean reads the precondition entry by entry; Proof/Payload.lean reads the block the body stores at an
   entry; Proof/HostNorms.lean reads the reciprocal-norm columns the region is launched with; Proof/KernelArray.lean
   shows every grid point writes its own block of one whole-array function and the blocks tile the array;
   Proof/RefValue.lean reads the reference's last stage at an entry; Proof/Bridge.lean joins the two by the law.
   The kernel's frames, its run with the result array named, and the reference's run and its stages read at an index
   are the generated modules under Proof/Gen/. -/
import proofs.«141678_j28467043237895_2_alg».proof.Defs
import proofs.«141678_j28467043237895_2_alg».proof.Proof.Gen.Kernel
import proofs.«141678_j28467043237895_2_alg».proof.Proof.Gen.Kernel.Skeleton
import proofs.«141678_j28467043237895_2_alg».proof.Proof.Gen.Kernel.Launch
import proofs.«141678_j28467043237895_2_alg».proof.Proof.Gen.Kernel.Points
import proofs.«141678_j28467043237895_2_alg».proof.Proof.Gen.Kernel.Frame
import proofs.«141678_j28467043237895_2_alg».proof.Proof.Gen.KernelIdeal
import proofs.«141678_j28467043237895_2_alg».proof.Proof.Gen.KernelIdeal.Skeleton
import proofs.«141678_j28467043237895_2_alg».proof.Proof.Gen.KernelIdeal.Launch
import proofs.«141678_j28467043237895_2_alg».proof.Proof.Gen.KernelIdeal.Points
import proofs.«141678_j28467043237895_2_alg».proof.Proof.Gen.KernelIdeal.Frame
import proofs.«141678_j28467043237895_2_alg».proof.Proof.Gen.ReferenceIdeal
import proofs.«141678_j28467043237895_2_alg».proof.Proof.Gen.Pre_finite_inputs
import proofs.«141678_j28467043237895_2_alg».proof.Proof.Gen.KernelIdeal.Value
import proofs.«141678_j28467043237895_2_alg».proof.Proof.Gen.ReferenceIdeal.Run
import proofs.«141678_j28467043237895_2_alg».proof.Proof.Gen.ReferenceIdeal.Read
import proofs.«141678_j28467043237895_2_alg».proof.Proof.PreDecode
import proofs.«141678_j28467043237895_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for its reading on the extended reals: nothing to preserve. -/
theorem preserves : Cert.preserves_Kernel_KernelIdeal := trivial

/-- From memories agreeing on the arguments, under the precondition, the kernel ends with its array of scaled inner
    products and the reference with its array of quotients; the two arrays are equal entry by entry. -/
theorem algebraic : Cert.algebraic_KernelIdeal_ReferenceIdeal := by
  intro m ρ m' ρ' hpre hagree
  refine ⟨_, Cert.Cosine.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Cosine.ref_eq, (hagree c).1, (hagree c).2]
  obtain ⟨hA, hB, hpA, hpB⟩ := Cert.Cosine.pre_decode _ _ (hpre c)
  exact (Cert.Cosine.kernel_eq_ref _ _ hA hB hpA hpB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
